-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_count" .f32 0x33579436#32 ((1 / 19922944 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x19x512x512 : Shape := ⟨4, ![4, 19, 512, 512]⟩
abbrev S4x512x512 : Shape := ⟨3, ![4, 512, 512]⟩
abbrev S_ : Shape := ⟨0, ![]⟩

class Facts : Prop where
  bcast_S_S4x19x512x512 : S_.BroadcastsInDim S4x19x512x512 (![] : Fin 0 → Fin S4x19x512x512.rank)
  reducesTo_S4x19x512x512_S_d0_1_2_3 : S4x19x512x512.ReducesTo [0, 1, 2, 3] S_
  h_S_ : 0 < S_.numel

variable [Facts]

def fn {F : FTy → Type} [FloatOps F] (main_arg0 : FVec F S4x19x512x512 .f32) (main_arg1 : IVec S4x512x512 32) : IVec S_ 1 :=
  let main_v0 : FVec F S4x19x512x512 .f32 := Host.absf main_arg0
  let main_cst : FVec F S_ .f32 := constant S_ .f32 0x7F800000#32
  let main_v1 : FVec F S4x19x512x512 .f32 := broadcastInDim S4x19x512x512 ![] bcast_S_S4x19x512x512 main_cst
  let main_v2 : IVec S4x19x512x512 1 := cmpf .olt main_v0 main_v1
  let main_c : IVec S_ 1 := constantI S_ 1 1#1
  let main_v3 : IVec S_ 1 := (fun x v => Host.reduce IntOp.andi x v reducesTo_S4x19x512x512_S_d0_1_2_3 h_S_) main_v2 main_c
  main_v3
-- ==== Kernel.lean ====
abbrev S4x19x512x512 : Shape := ⟨4, ![4, 19, 512, 512]⟩
abbrev S4x512x512 : Shape := ⟨3, ![4, 512, 512]⟩
abbrev S1x1 : Shape := ⟨2, ![1, 1]⟩
abbrev S1x19x64x512 : Shape := ⟨4, ![1, 19, 64, 512]⟩
abbrev S1x64x512 : Shape := ⟨3, ![1, 64, 512]⟩
abbrev S19x64x512 : Shape := ⟨3, ![19, 64, 512]⟩
abbrev S64x512 : Shape := ⟨2, ![64, 512]⟩
abbrev S64 : Shape := ⟨1, ![64]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4x19x512x512, .f32⟩
  | .hbm, ⟨1, _⟩ => ⟨S4x512x512, .i32⟩
  | .hbm, ⟨2, _⟩ => ⟨S1x1, .f32⟩
  | .hbm, ⟨3, _⟩ => ⟨S_, .f32⟩
  | .local _ .vmem, ⟨0, _⟩ => ⟨S1x19x64x512, .f32⟩
  | .local _ .vmem, ⟨1, _⟩ => ⟨S1x19x64x512, .f32⟩
  | .local _ .vmem, ⟨2, _⟩ => ⟨S1x64x512, .i32⟩
  | .local _ .vmem, ⟨3, _⟩ => ⟨S1x64x512, .i32⟩
  | .local _ .vmem, ⟨4, _⟩ => ⟨S1x1, .f32⟩
  | .local _ .vmem, ⟨5, _⟩ => ⟨S1x1, .f32⟩
  | _, _ => ⟨S4x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v64 : BitVec 1 := Scalar.cmpi .eq arg0 c3_i32
  let arg1 : BitVec 32 := BitVec.ofNat 32 (i 1).val
  let c7_i32 : BitVec 32 := 7#32
  let v65 : BitVec 1 := Scalar.cmpi .eq arg1 c7_i32
  let v66 : BitVec 1 := Scalar.andi v64 v65
  let v67 : BitVec 32 := Scalar.extui v66
  let c0_i32_22 : BitVec 32 := 0#32
  let v68 : BitVec 1 := Scalar.cmpi .ne v67 c0_i32_22
  v68

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x19x64x512_S1x19x64x512_0_0_0_0 : ∀ a, (![0, 0, 0, 0] : Fin 4 → Nat) a + S1x19x64x512.size a ≤ S1x19x64x512.size a
  h_S1x19x64x512 : 0 < S1x19x64x512.numel
  shapeCasts_S1x19x64x512_S19x64x512 : S1x19x64x512.ShapeCasts S19x64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  iota_S19x64x512_d0_w32 : S19x64x512.Iotas .tc 32 [0]
  shapeCasts_S64x512_S1x64x512 : S64x512.ShapeCasts S1x64x512
  broadcasts_S1x64x512_S19x64x512 : S1x64x512.Broadcasts S19x64x512
  natLt_1_32 : 1 < 32
  reduces_S19x64x512_S64x512 : S19x64x512.Reduces [0] S64x512
  reduces_S64x512_S64 : S64x512.Reduces [1] S64
  shapeCasts_S64_S64x1 : S64.ShapeCasts S64x1
  shapeCasts_S64x1_S1x64x1 : S64x1.ShapeCasts S1x64x1
  reduces_S1x64x1_S1 : S1x64x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x64x512.size a ≤ S4x19x512x512.size a
  hwx0_0 : ∀ i : grid0.Coords, EltTy.bits .f32 = 32 ∨ (Rect.block (s := S4x19x512x512) S1x19x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x512x512.size a
  hwx0_1 : ∀ i : grid0.Coords, EltTy.bits .i32 = 32 ∨ (Rect.block (s := S4x512x512) S1x64x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x19x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x19x512x512 : Shape := ⟨4, ![4, 19, 512, 512]⟩
abbrev S4x512x512 : Shape := ⟨3, ![4, 512, 512]⟩
abbrev S_ : Shape := ⟨0, ![]⟩
abbrev S4x1x512x512 : Shape := ⟨4, ![4, 1, 512, 512]⟩
abbrev S1x19x1x1 : Shape := ⟨4, ![1, 19, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x19x512x512, .f32⟩
  | .hbm, ⟨1, _⟩ => ⟨S4x512x512, .i32⟩
  | .hbm, ⟨2, _⟩ => ⟨S_, .i32⟩
  | .hbm, ⟨3, _⟩ => ⟨S4x512x512, .i32⟩
  | .hbm, ⟨4, _⟩ => ⟨S4x512x512, .i1⟩
  | .hbm, ⟨5, _⟩ => ⟨S_, .i32⟩
  | .hbm, ⟨6, _⟩ => ⟨S4x512x512, .i32⟩
  | .hbm, ⟨7, _⟩ => ⟨S4x512x512, .i1⟩
  | .hbm, ⟨8, _⟩ => ⟨S4x512x512, .i1⟩
  | .hbm, ⟨9, _⟩ => ⟨S_, .i32⟩
  | .hbm, ⟨10, _⟩ => ⟨S_, .i32⟩
  | .hbm, ⟨11, _⟩ => ⟨S4x512x512, .i32⟩
  | .hbm, ⟨12, _⟩ => ⟨S4x512x512, .i32⟩
  | .hbm, ⟨13, _⟩ => ⟨S4x1x512x512, .i32⟩
  | .hbm, ⟨14, _⟩ => ⟨S1x19x1x1, .i32⟩
  | .hbm, ⟨15, _⟩ => ⟨S4x19x512x512, .i32⟩
  | .hbm, ⟨16, _⟩ => ⟨S4x19x512x512, .i32⟩
  | .hbm, ⟨17, _⟩ => ⟨S4x19x512x512, .i1⟩
  | .hbm, ⟨18, _⟩ => ⟨S4x19x512x512, .f32⟩
  | .hbm, ⟨19, _⟩ => ⟨S4x512x512, .f32⟩
  | .hbm, ⟨20, _⟩ => ⟨S4x1x512x512, .f32⟩
  | .hbm, ⟨21, _⟩ => ⟨S4x19x512x512, .f32⟩
  | .hbm, ⟨22, _⟩ => ⟨S4x19x512x512, .f32⟩
  | .hbm, ⟨23, _⟩ => ⟨S_, .f32⟩
  | .hbm, ⟨24, _⟩ => ⟨S4x19x512x512, .f32⟩
  | .hbm, ⟨25, _⟩ => ⟨S4x19x512x512, .i1⟩
  | .hbm, ⟨26, _⟩ => ⟨S_, .f32⟩
  | .hbm, ⟨27, _⟩ => ⟨S4x19x512x512, .f32⟩
  | .hbm, ⟨28, _⟩ => ⟨S4x19x512x512, .f32⟩
  | .hbm, ⟨29, _⟩ => ⟨S4x19x512x512, .f32⟩
  | .hbm, ⟨30, _⟩ => ⟨S_, .f32⟩
  | .hbm, ⟨31, _⟩ => ⟨S4x19x512x512, .f32⟩
  | .hbm, ⟨32, _⟩ => ⟨S4x19x512x512, .f32⟩
  | .hbm, ⟨33, _⟩ => ⟨S4x19x512x512, .f32⟩
  | .hbm, ⟨34, _⟩ => ⟨S_, .f32⟩
  | .hbm, ⟨35, _⟩ => ⟨S4x19x512x512, .f32⟩
  | .hbm, ⟨36, _⟩ => ⟨S4x19x512x512, .f32⟩
  | .hbm, ⟨37, _⟩ => ⟨S4x19x512x512, .f32⟩
  | .hbm, ⟨38, _⟩ => ⟨S_, .f32⟩
  | .hbm, ⟨39, _⟩ => ⟨S4x19x512x512, .f32⟩
  | .hbm, ⟨40, _⟩ => ⟨S4x19x512x512, .f32⟩
  | .hbm, ⟨41, _⟩ => ⟨S4x19x512x512, .f32⟩
  | .hbm, ⟨42, _⟩ => ⟨S4x19x512x512, .f32⟩
  | .hbm, ⟨43, _⟩ => ⟨S4x19x512x512, .f32⟩
  | .hbm, ⟨44, _⟩ => ⟨S4x19x512x512, .f32⟩
  | .hbm, ⟨45, _⟩ => ⟨S4x19x512x512, .f32⟩
  | .hbm, ⟨46, _⟩ => ⟨S4x19x512x512, .f32⟩
  | .hbm, ⟨47, _⟩ => ⟨S4x19x512x512, .f32⟩
  | .hbm, ⟨48, _⟩ => ⟨S4x19x512x512, .f32⟩
  | .hbm, ⟨49, _⟩ => ⟨S4x19x512x512, .f32⟩
  | .hbm, ⟨50, _⟩ => ⟨S4x19x512x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩

abbrev nD : Nat := 1
abbrev τ : Topo := Topo.v7x

variable {F : FTy → Type} [FloatOps F]

class Facts₀ : Prop where
  bcast_S_S4x512x512 : S_.BroadcastsInDim S4x512x512 (![] : Fin 0 → Fin S4x512x512.rank)
  bcast_S4x512x512_S4x1x512x512_0_2_3 : S4x512x512.BroadcastsInDim S4x1x512x512 (![0, 2, 3] : Fin 3 → Fin S4x1x512x512.rank)
  bcast_S4x1x512x512_S4x19x512x512_0_1_2_3 : S4x1x512x512.BroadcastsInDim S4x19x512x512 (![0, 1, 2, 3] : Fin 4 → Fin S4x19x512x512.rank)
  bcast_S1x19x1x1_S4x19x512x512_0_1_2_3 : S1x19x1x1.BroadcastsInDim S4x19x512x512 (![0, 1, 2, 3] : Fin 4 → Fin S4x19x512x512.rank)
  bcast_S_S4x19x512x512 : S_.BroadcastsInDim S4x19x512x512 (![] : Fin 0 → Fin S4x19x512x512.rank)
  reducesTo_S4x19x512x512_S_d0_1_2_3 : S4x19x512x512.ReducesTo [0, 1, 2, 3] S_
  h_S_ : 0 < S_.numel

variable [Facts₀]

class Facts : Prop extends Facts₀ where

variable [Facts]
-- ==== Proof.Spec.lean ====
/-
  The focal-loss mean as ONE function of the two argument arrays, over the extended reals, and the
  rearrangement of its sum that a blocked evaluation computes.

  For scores `x : [4, 19, 512, 512]` and labels `lab : [4, 512, 512]` the loss at (n, c, h, w) is
      (max x 0 − x·oh + log(1 + e^(−|x|))) · cw · v
  where `v` is 1 when the pixel's label is valid (0 ≤ label, label ≠ 255) and 0 otherwise, `oh` is 1 when the
  pixel is valid and its label (0 when invalid) is the channel `c`, and `cw` is ¼(1 − x)² where `oh = 1` and ¼x²
  elsewhere. The result is the sum of all 4·19·512·512 = 19922944 losses times 1/19922944.

  The sum may be taken in any order and grouping: the extended reals are a commutative additive monoid, and
  nothing below cancels or distributes. A blocked evaluation visits 32 blocks (n, hb), n < 4, hb < 8, block
  (n, hb) holding the rows 64·hb … 64·hb + 63 of image n, and sums each block over rows, then lanes, then
  channels innermost: `total_eq_points`.
-/
import Idealize.ShloMosaic.PureOps.Ideal
import Idealize.ShloMosaic.PureOps.Ideal.Laws
import Idealize.ShloMosaic.Lib.ValueIdx

noncomputable section

open scoped BigOperators

namespace Cert.FocalSpec

open Idealize.ShloMosaic Idealize.ShloMosaic.ValueIdx

/-- The scores' shape and the labels' shape. -/
abbrev SX : Shape := ⟨4, ![4, 19, 512, 512]⟩
abbrev SL : Shape := ⟨3, ![4, 512, 512]⟩

/-! ## One loss term -/

/-- A label word is valid when it is nonnegative (read signed) and is not the ignore index 255. -/
def validBit (l : BitVec 32) : BitVec 1 := IntOp.andi (IntOp.cmpi .sge l 0#32) (IntOp.cmpi .ne l 255#32)

/-- The loss of one score `x` whose pixel carries the label word `l`, in the channel whose word is `cw`. -/
def term (x : EReal) (l cw : BitVec 32) : EReal :=
  let vf : EReal := FloatOps.uitofp (F := Ideal) .f32 (validBit l)
  let oh : EReal := FloatOps.uitofp (F := Ideal) .f32 (IntOp.cmpi .eq (Scalar.select (validBit l) l 0#32) cw) * vf
  let one : EReal := Ideal.ofBits .f32 0x3F800000#32
  let q : EReal := Ideal.ofBits .f32 0x3E800000#32
  let z : EReal := Ideal.ofBits .f32 0x00000000#32
  (((max x z - x * oh) + Ideal.log1p (Ideal.exp (-(max x (-x)))))
      * Scalar.select (Ideal.cmp .oeq oh one) (q * ((one - x) * (one - x))) (q * (x * x))) * vf

/-! ## The whole result -/

/-- The pixel (n, h, w) of a score index (n, c, h, w). -/
abbrev labIdx (j : SX.Idx) : SL.Idx := fun a => match a with
  | ⟨0, _⟩ => ⟨(j 0).val, (j 0).isLt⟩
  | ⟨1, _⟩ => ⟨(j 2).val, (j 2).isLt⟩
  | ⟨2, _⟩ => ⟨(j 3).val, (j 3).isLt⟩

/-- The loss at a score index. -/
def lossAt (x : SX.Idx → EReal) (lab : SL.Idx → BitVec 32) (j : SX.Idx) : EReal :=
  term (x j) (lab (labIdx j)) (BitVec.ofNat 32 (j 1).val)

/-- The sum of all losses. -/
def total (x : SX.Idx → EReal) (lab : SL.Idx → BitVec 32) : EReal := ∑ j : SX.Idx, lossAt x lab j

/-- The mean: the sum times the exact reciprocal of the number of scores. -/
def mean (x : SX.Idx → EReal) (lab : SL.Idx → BitVec 32) : EReal := total x lab * ((1 / 19922944 : ℝ) : EReal)

/-! ## Literals -/

/-- The word `0x4B980000` denotes the real 19922944 = 19 · 2²⁰. -/
theorem ofBits_count : Ideal.ofBits .f32 0x4B980000#32 = ((19922944 : ℝ) : EReal) := by
  simp [Ideal.ofBits, Ideal.ieee, -EReal.coe_mul]; norm_num

/-- The word `0x3F800000` denotes 1. -/
theorem ofBits_one : Ideal.ofBits .f32 0x3F800000#32 = 1 := by
  simp [Ideal.ofBits, Ideal.ieee, -EReal.coe_mul]; norm_num

/-! ## Sums over index sets by coordinates -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The same at rank 3. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rows in blocks of 64, points in rows of 8 -/

/-- Row `h'` of row block `hb`: row `64·hb + h'` of the image. -/
def row (hb : Fin 8) (h' : Fin 64) : Fin 512 := ⟨64 * hb.val + h'.val, by have := hb.isLt; have := h'.isLt; omega⟩

/-- A sum over the 512 rows is the sum over the 8 row blocks of the sums over their 64 rows. -/
theorem sum_rows {M : Type*} [AddCommMonoid M] (F : Fin 512 → M) :
    ∑ h : Fin 512, F h = ∑ hb : Fin 8, ∑ h' : Fin 64, F (row hb h') :=
  calc ∑ h : Fin 512, F h
      = ∑ p : Fin 8 × Fin 64, F (finProdFinEquiv p) := (Equiv.sum_comp (finProdFinEquiv (m := 8) (n := 64)) F).symm
    _ = ∑ hb : Fin 8, ∑ h' : Fin 64, F (finProdFinEquiv (hb, h')) := Fintype.sum_prod_type _
    _ = ∑ hb : Fin 8, ∑ h' : Fin 64, F (row hb h') :=
        Finset.sum_congr rfl fun hb _ => Finset.sum_congr rfl fun h' _ => congrArg F (Fin.ext (by
          show ((finProdFinEquiv (hb, h') : Fin (8 * 64)) : ℕ) = 64 * hb.val + h'.val
          rw [finProdFinEquiv_apply_val]
          show h'.val + 64 * hb.val = 64 * hb.val + h'.val
          omega))

/-- A sum over 32 points, point `t` standing for the pair (n, hb) with `t = 8·n + hb`, is the double sum over the pairs. -/
theorem sum_points {M : Type*} [AddCommMonoid M] (g : Fin 4 → Fin 8 → M) (pn : Fin 32 → Fin 4) (ph : Fin 32 → Fin 8)
    (hp : ∀ t : Fin 32, t.val = 8 * (pn t).val + (ph t).val) :
    ∑ t : Fin 32, g (pn t) (ph t) = ∑ n : Fin 4, ∑ hb : Fin 8, g n hb :=
  calc ∑ t : Fin 32, g (pn t) (ph t)
      = ∑ p : Fin 4 × Fin 8, g (pn (finProdFinEquiv p)) (ph (finProdFinEquiv p)) :=
        (Equiv.sum_comp (finProdFinEquiv (m := 4) (n := 8)) (fun t : Fin 32 => g (pn t) (ph t))).symm
    _ = ∑ n : Fin 4, ∑ hb : Fin 8, g (pn (finProdFinEquiv (n, hb))) (ph (finProdFinEquiv (n, hb))) := Fintype.sum_prod_type _
    _ = ∑ n : Fin 4, ∑ hb : Fin 8, g n hb :=
        Finset.sum_congr rfl fun n _ => Finset.sum_congr rfl fun hb _ => by
          have h := hp (finProdFinEquiv (n, hb))
          have hv : ((finProdFinEquiv (n, hb) : Fin (4 * 8)) : ℕ) = hb.val + 8 * n.val := finProdFinEquiv_apply_val _
          have b1 := (pn (finProdFinEquiv (n, hb))).isLt
          have b2 := (ph (finProdFinEquiv (n, hb))).isLt
          have b3 := hb.isLt
          have b4 := n.isLt
          have e1 : pn (finProdFinEquiv (n, hb)) = n := Fin.ext (by omega)
          have e2 : ph (finProdFinEquiv (n, hb)) = hb := Fin.ext (by omega)
          rw [e1, e2]

/-- A running sum that starts at its first term and adds one term per step is, after step `n`, the sum of the terms
    0 … n. -/
theorem chain_sum {M : Type*} [AddCommMonoid M] {N : ℕ} (B : Fin N → M) (ch : (n : ℕ) → n < N → M)
    (h0 : ∀ h, ch 0 h = B ⟨0, h⟩)
    (hs : ∀ n (h : n + 1 < N), ch (n + 1) h = ch n (Nat.lt_of_succ_lt h) + B ⟨n + 1, h⟩) :
    ∀ (n : ℕ) (h : n < N), ch n h = ∑ s : Fin (n + 1), B ⟨s.val, lt_of_lt_of_le s.isLt h⟩
  | 0, h => by rw [h0, Fin.sum_univ_one]; rfl
  | n + 1, h => by
    rw [hs n h, chain_sum B ch h0 hs n (Nat.lt_of_succ_lt h)]
    exact (Fin.sum_univ_castSucc (fun s : Fin (n + 1 + 1) => B ⟨s.val, lt_of_lt_of_le s.isLt h⟩)).symm

/-! ## The blocked sum -/

/-- The sum of the losses of block (n, hb): over its 64 rows, then the 512 lanes, then the 19 channels. -/
def blockSum (x : SX.Idx → EReal) (lab : SL.Idx → BitVec 32) (n : Fin 4) (hb : Fin 8) : EReal :=
  ∑ h' : Fin 64, ∑ w : Fin 512, ∑ c : Fin 19,
    term (x (ix4 n c (row hb h') w)) (lab (ix3 n (row hb h') w)) (BitVec.ofNat 32 c.val)

/-- The pixel of (n, c, h, w) is (n, h, w). -/
theorem labIdx_ix4 (n : Fin 4) (c : Fin 19) (h w : Fin 512) : labIdx (ix4 n c h w) = ix3 n h w := by
  funext a; match a with | ⟨0, _⟩ => rfl | ⟨1, _⟩ => rfl | ⟨2, _⟩ => rfl

/-- The sum of all losses is the sum over the 32 blocks of their sums, whatever order the blocks are visited in
    (here: point `t` visits block (n, hb) with `t = 8·n + hb`). -/
theorem total_eq_points (x : SX.Idx → EReal) (lab : SL.Idx → BitVec 32) (pn : Fin 32 → Fin 4) (ph : Fin 32 → Fin 8)
    (hp : ∀ t : Fin 32, t.val = 8 * (pn t).val + (ph t).val) :
    ∑ t : Fin 32, blockSum x lab (pn t) (ph t) = total x lab := by
  rw [sum_points (blockSum x lab) pn ph hp]
  unfold total
  rw [sum_idx4]
  refine Finset.sum_congr rfl fun n _ => ?_
  -- for one image: channels, rows, lanes  →  row blocks, rows, lanes, channels
  have e : ∀ c : Fin 19, ∑ h : Fin 512, ∑ w : Fin 512, lossAt x lab (ix4 n c h w)
      = ∑ hb : Fin 8, ∑ h' : Fin 64, ∑ w : Fin 512, lossAt x lab (ix4 n c (row hb h') w) := fun c => sum_rows _
  rw [Finset.sum_congr rfl fun c _ => e c, Finset.sum_comm]
  refine Finset.sum_congr rfl fun hb _ => ?_
  rw [Finset.sum_comm]
  refine Finset.sum_congr rfl fun h' _ => ?_
  rw [Finset.sum_comm]
  refine Finset.sum_congr rfl fun w _ => Finset.sum_congr rfl fun c _ => ?_
  unfold lossAt
  rw [labIdx_ix4]

end Cert.FocalSpec

end
-- ==== Proof.RefMean.lean ====
/-
  The reference computes the mean: its last stage, read at the ideal instance, is `FocalSpec.mean` of the two
  arguments.

  Stage 33 is the array of losses: read at a score index (n, c, h, w), every stage below it reads the score there and
  the label at the pixel (n, h, w) — the broadcasts along the channel axis and of the channel iota only move indices —
  and the operations met on the way are the ones `FocalSpec.term` is written with. Stage 34 adds all of them to the
  zero it starts from, stage 35 divides by the literal 19922944, and stage 36 multiplies by the literal 1: dividing an
  extended real by a nonzero real is multiplying by its reciprocal, at the infinities too.
-/
import proofs.«106101_j78340203479413_2_alg».proof.Proof.RefRead
import proofs.«106101_j78340203479413_2_alg».proof.Proof.Spec

noncomputable section

open scoped BigOperators

namespace Cert.ReferenceIdeal.RefValue

open Cert.ReferenceIdeal Cert.ReferenceIdeal.ReadP Cert.FocalSpec Idealize.ShloMosaic Idealize.ShloMosaic.ValueIdx

/-- The two broadcasts that carry a per-pixel array to the scores' shape read the pixel of the score index. -/
theorem pixel_a (j : S4x19x512x512.Idx) : idx_main_call1_v0 (idx_main_call1_v2 j) = labIdx j := by
  funext a; match a with | ⟨0, _⟩ => rfl | ⟨1, _⟩ => rfl | ⟨2, _⟩ => rfl
theorem pixel_b (j : S4x19x512x512.Idx) : idx_main_v8 (idx_main_v9 j) = labIdx j := by
  funext a; match a with | ⟨0, _⟩ => rfl | ⟨1, _⟩ => rfl | ⟨2, _⟩ => rfl
theorem pixel_c (j : S4x19x512x512.Idx) : idx_main_v8 (idx_main_v32 j) = labIdx j := by
  funext a; match a with | ⟨0, _⟩ => rfl | ⟨1, _⟩ => rfl | ⟨2, _⟩ => rfl

/-- Stage 33 at a score index is the loss there. -/
theorem losses_apply (x0 : (⟨S4x19x512x512, .f32⟩ : BufTy).Contents (Elt Ideal)) (x1 : (⟨S4x512x512, .i32⟩ : BufTy).Contents (Elt Ideal))
    (j : S4x19x512x512.Idx) : val_main_v33 (F := Ideal) x0 x1 j = lossAt x0 x1 j := by
  simp only [val_main_v33_apply, val_main_v32_apply, val_main_v31_apply, val_main_v30_apply, val_main_v29_apply, val_main_v28_apply,
    val_main_v27_apply, val_main_v26_apply, val_main_v25_apply, val_main_v24_apply, val_main_v23_apply, val_main_v22_apply,
    val_main_cst_5_apply, val_main_v21_apply, val_main_v20_apply, val_main_v19_apply, val_main_cst_4_apply, val_main_v18_apply,
    val_main_v17_apply, val_main_v16_apply, val_main_cst_3_apply, val_main_v15_apply, val_main_v14_apply, val_main_v13_apply,
    val_main_cst_2_apply, val_main_v12_apply, val_main_v11_apply, val_main_cst_apply, val_main_v10_apply, val_main_v9_apply,
    val_main_v8_apply, val_main_v7_apply, val_main_v6_apply, val_main_call1_v4_apply, val_main_call1_v3_apply, val_main_call1_v2_apply,
    val_main_call1_v1_apply, val_main_call1_v0_apply, val_main_v5_apply, val_main_call0_v1_apply, val_main_call0_v0_apply,
    val_main_c_1_apply, val_main_v4_apply, val_main_v3_apply, val_main_v2_apply, val_main_c_0_apply, val_main_v1_apply,
    val_main_v0_apply, val_main_c_apply, pixel_a, pixel_b, pixel_c]
  rfl

/-- The reference's result is the mean. -/
theorem result_eq (x0 : (⟨S4x19x512x512, .f32⟩ : BufTy).Contents (Elt Ideal)) (x1 : (⟨S4x512x512, .i32⟩ : BufTy).Contents (Elt Ideal)) :
    val_main_v36 (F := Ideal) x0 x1 = fun _ => mean x0 x1 := by
  funext i
  rw [val_main_v36_apply, val_main_v35_apply, val_main_v34_apply, val_main_cst_8_apply, val_main_cst_7_apply, val_main_cst_6_apply,
    Finset.sum_congr rfl fun j _ => losses_apply x0 x1 j]
  show Ideal.ofBits .f32 0x3F800000#32 * Ideal.div (Ideal.ofBits .f32 0x00000000#32 + total x0 x1) (Ideal.ofBits .f32 0x4B980000#32)
    = total x0 x1 * ((1 / 19922944 : ℝ) : EReal)
  rw [ofBits_count, Ideal.div_coe (by norm_num : (19922944 : ℝ) ≠ 0), Ideal.ofBits_zero_f32, zero_add, ofBits_one, one_mul]

end Cert.ReferenceIdeal.RefValue

end
-- ==== Proof.Pieces.lean ====
/-
  What one run of the kernel body leaves behind, as values.

  The body keeps a running sum in a one-word scratch. At every point it loads the score block and the label block,
  adds the block's sum of losses to the scratch (`step`), and at the last point also stores the scratch times the
  named reciprocal into the output word. At the first point the scratch is first set to zero, so what it holds
  afterwards is `step` of the zero word; at the other points it is `step` of what the point before left.
  Each store goes through the whole one-word rectangle, so what a buffer holds after the body is its last store's
  value, and a load after a store reads that store's value.
-/
import proofs.«106101_j78340203479413_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.KValue

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The scratch word after the body, from the two input blocks and the scratch word before: the word before plus the
    block's sum of losses. -/
def step (x0 : Vec F S1x19x64x512 .f32) (x1 : Vec F S1x64x512 .i32) (acc : Vec F S1x1 .f32) : Vec F S1x1 .f32 :=
  k0_pay1 (k0_pay4 x0) (k0_pay7 x1) (k0_pay8 x1) (k0_pay9 x0 x1) k0_pay10 acc

/-- At a middle point the scratch ends at `step` of what it held. -/
theorem sout_B (c : Dev nD) (i : grid0.Coords) (arg2 : Memref sig .tc .vmem S1x19x64x512 .f32) (harg2 : arg2.IsWhole) (arg3 : Memref sig .tc .vmem S1x64x512 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S1x19x64x512 .f32) (x1 : Vec F S1x64x512 .i32) (xs0 : Vec F S1x1 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x19x64x512) hz4,
    View.ld_unit_zero (S := S1x64x512) hz3, View.ld_unit_zero (S := S1x1) hz2]
  rfl

/-- At the last point the scratch ends at `step` of what it held, -/
theorem sout_C (c : Dev nD) (i : grid0.Coords) (arg2 : Memref sig .tc .vmem S1x19x64x512 .f32) (harg2 : arg2.IsWhole) (arg3 : Memref sig .tc .vmem S1x64x512 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1x19x64x512 .f32) (x1 : Vec F S1x64x512 .i32) (xs0 : Vec F S1x1 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x19x64x512) hz4,
    View.ld_unit_zero (S := S1x64x512) hz3, View.ld_unit_zero (S := S1x1) hz2]
  rfl

/-- and the output word at that times the named reciprocal: the load that feeds the product comes after the scratch's store. -/
theorem out_C (c : Dev nD) (i : grid0.Coords) (arg2 : Memref sig .tc .vmem S1x19x64x512 .f32) (harg2 : arg2.IsWhole) (arg3 : Memref sig .tc .vmem S1x64x512 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1x19x64x512 .f32) (x1 : Vec F S1x64x512 .i32) (xs0 : Vec F S1x1 .f32) :
    out0_C_2 c i arg2 harg2 arg3 harg3 arg4 harg4 arg5 harg5 hc0 hc1 x0 x1 xs0 = k0_pay2 (step x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S1x1) _ hz2]
  simp only [View.readAt_eq_ld, harg2.read_unread, harg3.read_unread, harg5.read_unread, View.ld_unit_zero (S := S1x19x64x512) hz4,
    View.ld_unit_zero (S := S1x64x512) hz3, View.ld_unit_zero (S := S1x1) hz2]
  rfl

/-- At the first point the scratch is set to zero and then stepped: the load that feeds the sum reads the zero just stored. -/
theorem sout_A (c : Dev nD) (i : grid0.Coords) (arg2 : Memref sig .tc .vmem S1x19x64x512 .f32) (harg2 : arg2.IsWhole) (arg3 : Memref sig .tc .vmem S1x64x512 .i32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S1x19x64x512 .f32) (x1 : Vec F S1x64x512 .i32) :
    sout0_A_0 c i arg2 harg2 arg3 harg3 arg4 harg4 arg5 harg5 hc0 hc1 x0 x1 = step x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S1x19x64x512) hz4,
    View.ld_unit_zero (S := S1x64x512) hz3]
  rfl

end Cert.KernelIdeal.KValue

end
-- ==== Proof.SumUp.lean ====
/-
  How the body adds a block's losses to its running sum, over the extended reals.

  The body sums a [19, 64, 512] array first over its 19 channels (leaving [64, 512]), then over the 512 lanes of each
  row (leaving [64]), stands the 64 row sums up as a [1, 64, 1] array and sums that whole array into one word, which
  it adds to the scratch word. Read at the ideal instance each of these is an exact finite sum, so the scratch word
  ends at what it held plus the sum, over rows, lanes and channels, of the array's entries.
-/
import proofs.«106101_j78340203479413_2_alg».proof.Proof.Gen.KernelIdeal.Skeleton
import proofs.«106101_j78340203479413_2_alg».proof.Proof.Spec
import Idealize.ShloMosaic.Lib.Pipeline.Value
import Idealize.ShloMosaic.PureOps.Ideal.Laws

noncomputable section

open scoped BigOperators
open Idealize.ShloMosaic Idealize.ShloMosaic.ValueIdx

namespace Cert.KernelIdeal.KValue

open Cert.KernelIdeal Cert.KernelIdeal.Gen

/-- The body's way of summing a [19, 64, 512] array `L` into the scratch word `acc`. -/
def sumUp (L : FVec Ideal S19x64x512 .f32) (acc : Vec Ideal S1x1 .f32) : FVec Ideal S1x1 .f32 :=
  shapeCast S1x1 (addf acc (broadcast S1x1 (extractAt ![0, 0, 0] (shapeCast S1x1x1 (multiReduction .add [1, 2] S1
    (shapeCast S1x64x1 (shapeCast S64x1 (multiReduction .add [1] S64
      (multiReduction .add [0] S64x512 L 0x00000000#32 reduces_S19x64x512_S64x512 (.inl rfl) rfl)
      0x00000000#32 reduces_S64x512_S64 (.inl rfl) rfl) shapeCasts_S64_S64x1) shapeCasts_S64x1_S1x64x1)
    0x00000000#32 reduces_S1x64x1_S1 (.inl rfl) rfl) shapeCasts_S1_S1x1x1) inpos_S1x1x1_p0_0_0))) shapeCasts_S1x1_S1x1

/-- Summing over the channel axis: entry (h, w) is the sum over the 19 channels. -/
theorem sum_channels (L : FVec Ideal S19x64x512 .f32) (h : Fin 64) (w : Fin 512) :
    multiReduction .add [0] S64x512 L 0x00000000#32 reduces_S19x64x512_S64x512 (.inl rfl) rfl (ix2 h w)
      = ∑ c : Fin 19, L (ix3 c h w) := by
  show Ideal.reduceAdd reduces_S19x64x512_S64x512 L (ix2 h w) = _
  rw [Ideal.reduceAdd_single]
  exact Finset.sum_congr rfl fun c _ => congrArg L (funext fun a => by
    match a with
    | ⟨0, _⟩ => exact Fin.ext rfl
    | ⟨1, _⟩ => exact Fin.ext rfl
    | ⟨2, _⟩ => exact Fin.ext rfl)

/-- Summing over the lane axis: entry h is the sum over the 512 lanes of row h. -/
theorem sum_lanes (M : FVec Ideal S64x512 .f32) (h : Fin 64) :
    multiReduction .add [1] S64 M 0x00000000#32 reduces_S64x512_S64 (.inl rfl) rfl (ix1 h)
      = ∑ w : Fin 512, M (ix2 h w) := by
  show Ideal.reduceAdd reduces_S64x512_S64 M (ix1 h) = _
  rw [Ideal.reduceAdd_single]
  exact Finset.sum_congr rfl fun w _ => congrArg M (funext fun a => by
    match a with
    | ⟨0, _⟩ => exact Fin.ext rfl
    | ⟨1, _⟩ => exact Fin.ext rfl)

/-- Summing a [1, 64, 1] array into one word: the sum of its 64 entries. -/
theorem sum_column (T : FVec Ideal S1x64x1 .f32) (j : S1.Idx) :
    multiReduction .add [1, 2] S1 T 0x00000000#32 reduces_S1x64x1_S1 (.inl rfl) rfl j
      = ∑ h : Fin 64, T (ix3 (0 : Fin 1) h (0 : Fin 1)) := by
  show Ideal.reduceAdd reduces_S1x64x1_S1 T j = _
  rw [Ideal.reduceAdd_total reduces_S1x64x1_S1 (fun b => by match b with | ⟨0, _⟩ => rfl) T j, Cert.FocalSpec.sum_idx3,
    Fin.sum_univ_one]
  exact Finset.sum_congr rfl fun h _ => Fin.sum_univ_one _

/-- A [64] vector stood up as [64, 1] reads its entry h at (h, 0); -/
theorem stand_col (v : S64.Idx → EReal) (h : Fin 64) :
    shapeCast S64x1 v shapeCasts_S64_S64x1 (ix2 h (0 : Fin 1)) = v (ix1 h) :=
  shapeCast_apply v shapeCasts_S64_S64x1 (ix2 h (0 : Fin 1)) (ix1 h) (by
    rw [Shape.rowMajor_val_one, Shape.rowMajor_val_two]
    show h.val = h.val * 1 + 0
    omega)

/-- and given a leading unit axis reads (h, 0) at (0, h, 0). -/
theorem lead_unit (v : S64x1.Idx → EReal) (h : Fin 64) :
    shapeCast S1x64x1 v shapeCasts_S64x1_S1x64x1 (ix3 (0 : Fin 1) h (0 : Fin 1)) = v (ix2 h (0 : Fin 1)) :=
  shapeCast_apply v shapeCasts_S64x1_S1x64x1 (ix3 (0 : Fin 1) h (0 : Fin 1)) (ix2 h (0 : Fin 1)) (by
    rw [Shape.rowMajor_val_two, Shape.rowMajor_val_three]
    show h.val * 1 + 0 = (0 * 64 + h.val) * 1 + 0
    omega)

/-- The one word of a [1] vector viewed as [1, 1, 1]. -/
theorem one_word (v : S1.Idx → EReal) (j : S1x1x1.Idx) :
    shapeCast S1x1x1 v shapeCasts_S1_S1x1x1 j = v (ix1 (0 : Fin 1)) :=
  shapeCast_apply v shapeCasts_S1_S1x1x1 j (ix1 (0 : Fin 1)) (by
    rw [Shape.rowMajor_val_one, Shape.rowMajor_val_three]
    have h0 : (j 0).val < 1 := (j 0).isLt
    have h1 : (j 1).val < 1 := (j 1).isLt
    have h2 : (j 2).val < 1 := (j 2).isLt
    show 0 = ((j 0).val * 1 + (j 1).val) * 1 + (j 2).val
    omega)

/-- The scratch word after the body's summing: what it held plus the sum of the array's entries, over the 64 rows,
    the 512 lanes of each, and the 19 channels of each lane. -/
theorem sumUp_apply (L : FVec Ideal S19x64x512 .f32) (acc : Vec Ideal S1x1 .f32) (i : S1x1.Idx) :
    sumUp L acc i = acc i + ∑ h : Fin 64, ∑ w : Fin 512, ∑ c : Fin 19, L (ix3 c h w) := by
  unfold sumUp
  rw [shapeCast_self]
  show acc i + shapeCast S1x1x1 _ shapeCasts_S1_S1x1x1 _ = _
  rw [one_word, sum_column]
  refine congrArg (acc i + ·) (Finset.sum_congr rfl fun h _ => ?_)
  rw [lead_unit, stand_col, sum_lanes]
  exact Finset.sum_congr rfl fun w _ => sum_channels L h w

end Cert.KernelIdeal.KValue

end
-- ==== Proof.LibBlockSum.lean ====
/-
  General facts for a sum computed block by block, and for the words a blocked one-hot comparison meets.

  * `sum_range_blocks`: in any commutative additive monoid a sum over `B · K` consecutive naturals is the sum of its
    `K` consecutive blocks of `B` terms (no finiteness or cancellation: it holds on the extended reals);
    `sum_fin_blocks` is the same with the outer sum over `Fin (B · K)` and the inner sums over `Fin B`.
  * `cmpi_eq_comm`: the integer equality test does not depend on the order of its operands.
  * `ofNat_add_ofNat_mul`: the word of lane `j` plus the word of `k` times the word of `B` is the word of
    `B · k + j` — the code a lane of block `k` stands for — at 32 bits, whatever the sizes (both sides wrap alike).
-/
import Idealize.ShloMosaic.PureOps.Ideal

open scoped BigOperators
open Idealize.ShloMosaic

namespace Cert.Lib.BlockSum

/-- A sum over `B · K` consecutive naturals is the sum of its `K` consecutive blocks of `B`. -/
theorem sum_range_blocks {M : Type*} [AddCommMonoid M] (f : ℕ → M) (B : ℕ) :
    ∀ K : ℕ, ∑ r ∈ Finset.range (B * K), f r = ∑ k ∈ Finset.range K, ∑ j ∈ Finset.range B, f (B * k + j)
  | 0 => by simp
  | K + 1 => by
    rw [Nat.mul_succ, Finset.sum_range_add, Finset.sum_range_succ, sum_range_blocks f B K]

/-- The same over finite index types: `B · K` terms are `K` blocks of `B`. -/
theorem sum_fin_blocks {M : Type*} [AddCommMonoid M] (f : ℕ → M) (B K : ℕ) :
    ∑ r : Fin (B * K), f r.val = ∑ k ∈ Finset.range K, ∑ j : Fin B, f (B * k + j.val) := by
  rw [Fin.sum_univ_eq_sum_range f (B * K), sum_range_blocks f B K]
  exact Finset.sum_congr rfl fun k _ => (Fin.sum_univ_eq_sum_range (fun j => f (B * k + j)) B).symm

/-- The equality test of two words does not depend on the order of its operands. -/
theorem cmpi_eq_comm {w : ℕ} (a b : BitVec w) : IntOp.cmpi .eq a b = IntOp.cmpi .eq b a := by
  unfold IntOp.cmpi
  exact congrArg BitVec.ofBool BEq.comm

/-- The word of `B · k + j` from the lane's word `j`, the block's word `k` and the block length's word `B`. -/
theorem ofNat_add_ofNat_mul (j k B : ℕ) :
    BitVec.ofNat 32 j + BitVec.ofNat 32 k * BitVec.ofNat 32 B = BitVec.ofNat 32 (B * k + j) := by
  rw [BitVec.ofNat_add, BitVec.ofNat_mul, BitVec.add_comm, BitVec.mul_comm]

end Cert.Lib.BlockSum
-- ==== Proof.LossBlock.lean ====
/-
  The array of losses the body computes from one score block and one label block, read at an entry.

  From the score block `x0 : [1, 19, 64, 512]` and the label block `x1 : [1, 64, 512]` the body forms, at channel c,
  row h and lane w, the loss `FocalSpec.term` of the score at (0, c, h, w), the label at (0, h, w) and the channel's
  word c. On the way: the reshapes that drop or add a leading unit axis and the spread of a [1, 64, 512] array over the
  19 channels only move indices; a one-bit word widened to 32 bits and converted as a signed integer is the bit itself
  (0 or 1), which is what converting the bit as an unsigned integer gives; the channel iota at (c, h, w) is the word c;
  the equality test does not depend on the order of its operands; and zero minus a value is its negation.
-/
import proofs.«106101_j78340203479413_2_alg».proof.Proof.Gen.KernelIdeal.Skeleton
import proofs.«106101_j78340203479413_2_alg».proof.Proof.Spec
import proofs.«106101_j78340203479413_2_alg».proof.Proof.LibBlockSum
import Idealize.ShloMosaic.Lib.Pipeline.Value
import Idealize.ShloMosaic.PureOps.Ideal.Laws

noncomputable section

open scoped BigOperators
open Idealize.ShloMosaic Idealize.ShloMosaic.ValueIdx

namespace Cert.KernelIdeal.KValue

open Cert.KernelIdeal Cert.KernelIdeal.Gen Cert.FocalSpec

/-- The block's array of losses, as the body forms it. -/
def lossBlock (x0 : Vec Ideal S1x19x64x512 .f32) (x1 : Vec Ideal S1x64x512 .i32) : FVec Ideal S19x64x512 .f32 :=
  mulf (mulf (addf (subf (maximumf (k0_pay4 (F := Ideal) x0) (k0_pay10 (F := Ideal)))
        (mulf (k0_pay4 (F := Ideal) x0) (k0_pay8 (F := Ideal) x1)))
      (log1p (exp (subf (broadcast S19x64x512 (Scalar.ofBits (F := Ideal) .f32 0x00000000#32)) (absf (k0_pay4 (F := Ideal) x0))))))
    (k0_pay9 (F := Ideal) x0 x1)) (broadcastTo S19x64x512 (k0_pay7 (F := Ideal) x1) broadcasts_S1x64x512_S19x64x512)

/-! ## Moving indices -/

/-- The score block without its leading unit axis reads (c, h, w) at (0, c, h, w). -/
theorem pay4_apply (x0 : Vec Ideal S1x19x64x512 .f32) (c : Fin 19) (h : Fin 64) (w : Fin 512) :
    k0_pay4 (F := Ideal) x0 (ix3 c h w) = x0 (ix4 (0 : Fin 1) c h w) :=
  shapeCast_apply x0 shapeCasts_S1x19x64x512_S19x64x512 (ix3 c h w) (ix4 (0 : Fin 1) c h w) (by
    rw [Shape.rowMajor_val_four, Shape.rowMajor_val_three]
    show ((0 * 19 + c.val) * 64 + h.val) * 512 + w.val = (c.val * 64 + h.val) * 512 + w.val
    omega)

/-- The label block without its leading unit axis reads (h, w) at (0, h, w). -/
theorem pay5_apply (x1 : Vec Ideal S1x64x512 .i32) (h : Fin 64) (w : Fin 512) :
    k0_pay5 (F := Ideal) x1 (ix2 h w) = x1 (ix3 (0 : Fin 1) h w) :=
  shapeCast_apply x1 shapeCasts_S1x64x512_S64x512 (ix2 h w) (ix3 (0 : Fin 1) h w) (by
    rw [Shape.rowMajor_val_three, Shape.rowMajor_val_two]
    show (0 * 64 + h.val) * 512 + w.val = h.val * 512 + w.val
    omega)

/-- A [64, 512] array given a leading unit axis reads (0, h, w) at (h, w). -/
theorem lift_apply {α : Type} (v : S64x512.Idx → α) (h : Fin 64) (w : Fin 512) :
    shapeCast S1x64x512 v shapeCasts_S64x512_S1x64x512 (ix3 (0 : Fin 1) h w) = v (ix2 h w) :=
  shapeCast_apply v shapeCasts_S64x512_S1x64x512 (ix3 (0 : Fin 1) h w) (ix2 h w) (by
    rw [Shape.rowMajor_val_two, Shape.rowMajor_val_three]
    show h.val * 512 + w.val = (0 * 64 + h.val) * 512 + w.val
    omega)

/-- A [1, 64, 512] array spread over the 19 channels reads (c, h, w) at (0, h, w). -/
theorem spread_apply {α : Type} (v : S1x64x512.Idx → α) (c : Fin 19) (h : Fin 64) (w : Fin 512) :
    broadcastTo S19x64x512 v broadcasts_S1x64x512_S19x64x512 (ix3 c h w) = v (ix3 (0 : Fin 1) h w) :=
  broadcastTo_apply v broadcasts_S1x64x512_S19x64x512 (ix3 c h w) (ix3 (0 : Fin 1) h w) (fun a => by
    match a with
    | ⟨0, _⟩ => show (0 : ℕ) = if (1 : ℕ) = 1 then 0 else _; rw [if_pos rfl]
    | ⟨1, _⟩ => show h.val = if (64 : ℕ) = 1 then 0 else h.val; rw [if_neg (by decide)]
    | ⟨2, _⟩ => show w.val = if (512 : ℕ) = 1 then 0 else w.val; rw [if_neg (by decide)])

/-! ## Words -/

/-- A one-bit word widened to 32 bits and converted as a signed integer is the bit converted as an unsigned integer. -/
theorem sitofp_bit (b : BitVec 1) :
    FloatOps.sitofp (F := Ideal) .f32 (b.setWidth 32) = FloatOps.uitofp (F := Ideal) .f32 b := by
  by_cases hb : b = 1#1
  · subst hb
    show (((((1#1 : BitVec 1).setWidth 32).toInt : ℝ)) : EReal) = ((((1#1 : BitVec 1).toNat : ℝ)) : EReal)
    rw [show ((1#1 : BitVec 1).setWidth 32).toInt = 1 from by decide, show (1#1 : BitVec 1).toNat = 1 from by decide]
    norm_num
  · obtain rfl := eq_zero_of_ne_one hb
    show (((((0#1 : BitVec 1).setWidth 32).toInt : ℝ)) : EReal) = ((((0#1 : BitVec 1).toNat : ℝ)) : EReal)
    rw [show ((0#1 : BitVec 1).setWidth 32).toInt = 0 from by decide, show (0#1 : BitVec 1).toNat = 0 from by decide]
    norm_num

/-- Zero minus a value is its negation, at the infinities too. -/
theorem zero_word_sub (m : EReal) : Ideal.ofBits .f32 0x00000000#32 - m = -m := by
  rw [Ideal.ofBits_zero_f32, sub_eq_add_neg, zero_add]

/-! ## The body's intermediate arrays at an entry -/

/-- The validity bit of the pixel (h, w). -/
theorem pay6_apply (x1 : Vec Ideal S1x64x512 .i32) (h : Fin 64) (w : Fin 512) :
    k0_pay6 (F := Ideal) x1 (ix2 h w) = validBit (x1 (ix3 (0 : Fin 1) h w)) := by
  show IntOp.andi (IntOp.cmpi .sge (k0_pay5 (F := Ideal) x1 (ix2 h w)) 0#32) (IntOp.cmpi .ne (k0_pay5 (F := Ideal) x1 (ix2 h w)) 255#32) = _
  rw [pay5_apply]
  rfl

/-- The validity of the pixel (h, w) as a number, 0 or 1. -/
theorem pay7_apply (x1 : Vec Ideal S1x64x512 .i32) (h : Fin 64) (w : Fin 512) :
    k0_pay7 (F := Ideal) x1 (ix3 (0 : Fin 1) h w) = FloatOps.uitofp (F := Ideal) .f32 (validBit (x1 (ix3 (0 : Fin 1) h w))) := by
  show shapeCast S1x64x512 (sitofp (F := Ideal) .f32 (extui 32 (k0_pay6 (F := Ideal) x1) natLt_1_32)) shapeCasts_S64x512_S1x64x512 (ix3 (0 : Fin 1) h w) = _
  rw [lift_apply]
  show FloatOps.sitofp (F := Ideal) .f32 ((k0_pay6 (F := Ideal) x1 (ix2 h w)).setWidth 32) = _
  rw [pay6_apply, sitofp_bit]

/-- The one-hot entry at (c, h, w): 1 when the pixel is valid and its label is the channel, else 0. -/
theorem pay8_apply (x1 : Vec Ideal S1x64x512 .i32) (c : Fin 19) (h : Fin 64) (w : Fin 512) :
    k0_pay8 (F := Ideal) x1 (ix3 c h w)
      = FloatOps.uitofp (F := Ideal) .f32 (IntOp.cmpi .eq (Scalar.select (validBit (x1 (ix3 (0 : Fin 1) h w))) (x1 (ix3 (0 : Fin 1) h w)) 0#32) (BitVec.ofNat 32 c.val))
        * FloatOps.uitofp (F := Ideal) .f32 (validBit (x1 (ix3 (0 : Fin 1) h w))) := by
  show FloatOps.sitofp (F := Ideal) .f32 ((IntOp.cmpi .eq (iota .tc S19x64x512 32 [0] iota_S19x64x512_d0_w32 (ix3 c h w))
        (broadcastTo S19x64x512 (shapeCast S1x64x512 (select (k0_pay6 (F := Ideal) x1) (k0_pay5 (F := Ideal) x1) (broadcast S64x512 0#32)) shapeCasts_S64x512_S1x64x512)
          broadcasts_S1x64x512_S19x64x512 (ix3 c h w))).setWidth 32)
      * broadcastTo S19x64x512 (k0_pay7 (F := Ideal) x1) broadcasts_S1x64x512_S19x64x512 (ix3 c h w) = _
  rw [iota_single_apply, spread_apply, spread_apply, lift_apply, pay7_apply, sitofp_bit]
  show FloatOps.uitofp (F := Ideal) .f32 (IntOp.cmpi .eq (BitVec.ofNat 32 c.val)
        (Scalar.select (k0_pay6 (F := Ideal) x1 (ix2 h w)) (k0_pay5 (F := Ideal) x1 (ix2 h w)) 0#32)) * _ = _
  rw [pay6_apply, pay5_apply, Cert.Lib.BlockSum.cmpi_eq_comm]

/-- The class weight at (c, h, w). -/
theorem pay9_apply (x0 : Vec Ideal S1x19x64x512 .f32) (x1 : Vec Ideal S1x64x512 .i32) (c : Fin 19) (h : Fin 64) (w : Fin 512) :
    k0_pay9 (F := Ideal) x0 x1 (ix3 c h w)
      = Scalar.select (Ideal.cmp .oeq (k0_pay8 (F := Ideal) x1 (ix3 c h w)) (Ideal.ofBits .f32 0x3F800000#32))
          (Ideal.ofBits .f32 0x3E800000#32 * ((Ideal.ofBits .f32 0x3F800000#32 - x0 (ix4 (0 : Fin 1) c h w)) * (Ideal.ofBits .f32 0x3F800000#32 - x0 (ix4 (0 : Fin 1) c h w))))
          (Ideal.ofBits .f32 0x3E800000#32 * (x0 (ix4 (0 : Fin 1) c h w) * x0 (ix4 (0 : Fin 1) c h w))) := by
  show Scalar.select (Ideal.cmp .oeq (k0_pay8 (F := Ideal) x1 (ix3 c h w)) (Ideal.ofBits .f32 0x3F800000#32))
          (Ideal.ofBits .f32 0x3E800000#32 * ((Ideal.ofBits .f32 0x3F800000#32 - k0_pay4 (F := Ideal) x0 (ix3 c h w)) * (Ideal.ofBits .f32 0x3F800000#32 - k0_pay4 (F := Ideal) x0 (ix3 c h w))))
          (Ideal.ofBits .f32 0x3E800000#32 * (k0_pay4 (F := Ideal) x0 (ix3 c h w) * k0_pay4 (F := Ideal) x0 (ix3 c h w))) = _
  rw [pay4_apply]

/-! ## The loss at an entry -/

/-- The block's array of losses at (c, h, w) is the loss of the score at (0, c, h, w) under the label at (0, h, w). -/
theorem lossBlock_apply (x0 : Vec Ideal S1x19x64x512 .f32) (x1 : Vec Ideal S1x64x512 .i32) (c : Fin 19) (h : Fin 64) (w : Fin 512) :
    lossBlock x0 x1 (ix3 c h w) = term (x0 (ix4 (0 : Fin 1) c h w)) (x1 (ix3 (0 : Fin 1) h w)) (BitVec.ofNat 32 c.val) := by
  show ((max (k0_pay4 (F := Ideal) x0 (ix3 c h w)) (Ideal.ofBits .f32 0x00000000#32)
          - k0_pay4 (F := Ideal) x0 (ix3 c h w) * k0_pay8 (F := Ideal) x1 (ix3 c h w))
        + Ideal.log1p (Ideal.exp (Ideal.ofBits .f32 0x00000000#32
            - max (k0_pay4 (F := Ideal) x0 (ix3 c h w)) (-(k0_pay4 (F := Ideal) x0 (ix3 c h w))))))
      * k0_pay9 (F := Ideal) x0 x1 (ix3 c h w)
      * broadcastTo S19x64x512 (k0_pay7 (F := Ideal) x1) broadcasts_S1x64x512_S19x64x512 (ix3 c h w) = _
  rw [spread_apply, pay7_apply, pay9_apply, pay8_apply, pay4_apply, zero_word_sub]
  rfl

end Cert.KernelIdeal.KValue

end
-- ==== Proof.Accum.lean ====
/-
  The running sum over the 32 points, and what the last point writes.

  Point `t` of the grid (t = 8·n + hb) stages the score block of image n, rows 64·hb … 64·hb + 63, all channels and
  lanes, and the label block of the same rows. After the body at point `t` the scratch word holds the sum, over the
  points up to `t`, of each point's block sum of losses — at the first point the scratch is zeroed first and 0 + a = a;
  at the last point the output word is that running sum times the named reciprocal 1/19922944. The 32 block sums
  together are the sum of all losses (`FocalSpec.total_eq_points`).
-/
import proofs.«106101_j78340203479413_2_alg».proof.Proof.Gen.KernelIdeal.Frame
import proofs.«106101_j78340203479413_2_alg».proof.Proof.Pieces
import proofs.«106101_j78340203479413_2_alg».proof.Proof.SumUp
import proofs.«106101_j78340203479413_2_alg».proof.Proof.LossBlock

set_option maxRecDepth 16384

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.FocalSpec

/-! ## One step, at the ideal instance -/

/-- The sum of the losses of one staged pair of blocks: over the 64 rows, the 512 lanes, the 19 channels. -/
def blockVal (x0 : Vec Ideal S1x19x64x512 .f32) (x1 : Vec Ideal S1x64x512 .i32) : EReal :=
  ∑ h : Fin 64, ∑ w : Fin 512, ∑ c : Fin 19,
    term (x0 (ix4 (0 : Fin 1) c h w)) (x1 (ix3 (0 : Fin 1) h w)) (BitVec.ofNat 32 c.val)

/-- The body's step adds the block's sum of losses to the scratch word. -/
theorem step_apply (x0 : Vec Ideal S1x19x64x512 .f32) (x1 : Vec Ideal S1x64x512 .i32) (acc : Vec Ideal S1x1 .f32) (i : S1x1.Idx) :
    step (F := Ideal) x0 x1 acc i = acc i + blockVal x0 x1 := by
  show sumUp (lossBlock x0 x1) acc i = _
  rw [sumUp_apply]
  exact congrArg (acc i + ·) (Finset.sum_congr rfl fun h _ => Finset.sum_congr rfl fun w _ =>
    Finset.sum_congr rfl fun c _ => lossBlock_apply x0 x1 c h w)

/-- The named reciprocal denotes 1/19922944, by the certificate's table. -/
theorem inv_count : Named.named (F := Ideal) Cert.KernelIdeal.κ "inv_count" (φ := .f32) 0x33579436#32 = ((1 / 19922944 : ℝ) : EReal) :=
  IdealRules.named_const.ideal_named_scalar _ _ _ _ rfl

/-- The output word is the scratch word times the named reciprocal. -/
theorem pay2_apply (v : Vec Ideal S1x1 .f32) (i : S1x1.Idx) :
    k0_pay2 (F := Ideal) v i = v i * ((1 / 19922944 : ℝ) : EReal) := by
  show v i * Named.named (F := Ideal) Cert.KernelIdeal.κ "inv_count" (φ := .f32) 0x33579436#32 = _
  rw [inv_count]

/-- The zero the scratch is reset to. -/
theorem pay3_apply (i : S1x1.Idx) : k0_pay3 (F := Ideal) i = 0 := by
  show Ideal.ofBits .f32 0x00000000#32 = 0
  exact Ideal.ofBits_zero_f32

variable (m : (ℓ : Loc nD τ sig) → Buf (Elt Ideal) ℓ)

/-! ## The staged blocks, read off the arrays -/

/-- Point `t` is block (t / 8, t % 8): the index maps, decided over the grid. -/
theorem idx_scores : ∀ t : Fin cfg0.N, win0_0.index t 0 = t.val / 8 ∧ win0_0.index t 1 = 0 ∧ win0_0.index t 2 = t.val % 8 ∧ win0_0.index t 3 = 0 :=
  (by decide +kernel : ∀ t : Fin grid0.N, win0_0.index t 0 = t.val / 8 ∧ win0_0.index t 1 = 0 ∧ win0_0.index t 2 = t.val % 8 ∧ win0_0.index t 3 = 0)
theorem idx_labels : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)

/-- The image and the row block of point `t`. -/
def imageOf (t : Fin cfg0.N) : Fin 4 := ⟨t.val / 8, by have := lt_of_lt_of_eq t.isLt (show cfg0.N = 32 from N_0); omega⟩
def rowBlockOf (t : Fin cfg0.N) : Fin 8 := ⟨t.val % 8, by omega⟩

/-- The scores and the labels as the region finds them. -/
abbrev scores (c : Dev nD) : SX.Idx → EReal := V m c main_arg0
abbrev labels (c : Dev nD) : SL.Idx → BitVec 32 := V m c main_arg1

/-- The score block at point `t` reads (0, ch, h, w) at (image, ch, 64·(row block) + h, w) of the scores. -/
theorem scores_blk (c : Dev nD) (t : Fin cfg0.N) (ch : Fin 19) (h : Fin 64) (w : Fin 512) :
    (iblk m c 0 t : Vec Ideal S1x19x64x512 .f32) (ix4 (0 : Fin 1) ch h w)
      = scores m c (ix4 (imageOf t) ch (row (rowBlockOf t) h) w) := by
  obtain ⟨e0, e1, e2, e3⟩ := idx_scores t
  unfold iblk
  rw [View.read_apply]
  show V m c main_arg0 _ = V m c main_arg0 _
  congr 1
  funext a
  apply Fin.ext
  match a with
  | ⟨0, _⟩ => show win0_0.index t 0 * 1 + 1 * 0 = t.val / 8; rw [e0]; omega
  | ⟨1, _⟩ => show win0_0.index t 1 * 19 + 1 * ch.val = ch.val; rw [e1]; omega
  | ⟨2, _⟩ => show win0_0.index t 2 * 64 + 1 * h.val = 64 * (t.val % 8) + h.val; rw [e2]; omega
  | ⟨3, _⟩ => show win0_0.index t 3 * 512 + 1 * w.val = w.val; rw [e3]; omega

/-- The label block at point `t` reads (0, h, w) at (image, 64·(row block) + h, w) of the labels. -/
theorem labels_blk (c : Dev nD) (t : Fin cfg0.N) (h : Fin 64) (w : Fin 512) :
    (iblk m c 1 t : Vec Ideal S1x64x512 .i32) (ix3 (0 : Fin 1) h w)
      = labels m c (ix3 (imageOf t) (row (rowBlockOf t) h) w) := by
  obtain ⟨e0, e1, e2⟩ := idx_labels t
  unfold iblk
  rw [View.read_apply]
  show V m c main_arg1 _ = V m c main_arg1 _
  congr 1
  funext a
  apply Fin.ext
  match a with
  | ⟨0, _⟩ => show win0_1.index t 0 * 1 + 1 * 0 = t.val / 8; rw [e0]; omega
  | ⟨1, _⟩ => show win0_1.index t 1 * 64 + 1 * h.val = 64 * (t.val % 8) + h.val; rw [e1]; omega
  | ⟨2, _⟩ => show win0_1.index t 2 * 512 + 1 * w.val = w.val; rw [e2]; omega

/-- The block sum of the pair staged at point `t`. -/
def ptVal (c : Dev nD) (t : Fin cfg0.N) : EReal := blockVal (iblk m c 0 t) (iblk m c 1 t)

/-- It is the block sum of block (image, row block) of the two arrays. -/
theorem ptVal_eq (c : Dev nD) (t : Fin cfg0.N) :
    ptVal m c t = blockSum (scores m c) (labels m c) (imageOf t) (rowBlockOf t) := by
  unfold ptVal blockVal blockSum
  refine Finset.sum_congr rfl fun h _ => Finset.sum_congr rfl fun w _ => Finset.sum_congr rfl fun ch _ => ?_
  rw [scores_blk m c t ch h w, labels_blk m c t h w]

/-! ## The scratch word after each point -/

/-- After the first point: that point's block sum. -/
theorem scratch_first (c : Dev nD) (t : Fin cfg0.N) (h0 : t.val % 32 = 0) (h1 : ¬t.val % 32 = 31) (i : S1x1.Idx) :
    (outsAt0 m c t.val t.isLt).2 i = ptVal m c t := by
  rw [outsAt0_A m c t h0 h1]
  dsimp only
  refine (congrFun (sout_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)) i).trans ?_
  refine (step_apply (iblk m c 0 t) (iblk m c 1 t) (k0_pay3 (F := Ideal)) i).trans ?_
  rw [pay3_apply, zero_add]
  rfl

/-- After a middle point: what the point before left plus this point's block sum. -/
theorem scratch_middle (c : Dev nD) (t : Fin cfg0.N) (h0 : ¬t.val % 32 = 0) (h1 : ¬t.val % 32 = 31) (i : S1x1.Idx) :
    (outsAt0 m c t.val t.isLt).2 i
      = (outsAt0 m c (t.val - 1) (Nat.lt_of_le_of_lt (Nat.sub_le _ _) t.isLt)).2 i + ptVal m c t := by
  rw [outsAt0_B m c t h0 h1]
  dsimp only
  refine (congrFun (sout_B (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2) i).trans ?_
  exact step_apply (iblk m c 0 t) (iblk m c 1 t) _ i

/-- After the last point: the same, -/
theorem scratch_last (c : Dev nD) (t : Fin cfg0.N) (h0 : ¬t.val % 32 = 0) (h1 : t.val % 32 = 31) (i : S1x1.Idx) :
    (outsAt0 m c t.val t.isLt).2 i
      = (outsAt0 m c (t.val - 1) (Nat.lt_of_le_of_lt (Nat.sub_le _ _) t.isLt)).2 i + ptVal m c t := by
  rw [outsAt0_C m c t h0 h1]
  dsimp only
  refine (congrFun (sout_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) i).trans ?_
  exact step_apply (iblk m c 0 t) (iblk m c 1 t) _ i

/-- and the output word holds that times the reciprocal of the count. -/
theorem output_last (c : Dev nD) (t : Fin cfg0.N) (h0 : ¬t.val % 32 = 0) (h1 : t.val % 32 = 31) (i : S1x1.Idx) :
    (outsAt0 m c t.val t.isLt).1 i
      = ((outsAt0 m c (t.val - 1) (Nat.lt_of_le_of_lt (Nat.sub_le _ _) t.isLt)).2 i + ptVal m c t) * ((1 / 19922944 : ℝ) : EReal) := by
  rw [outsAt0_C m c t h0 h1]
  dsimp only
  refine (congrFun (out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) i).trans ?_
  rw [pay2_apply]
  exact congrArg (· * ((1 / 19922944 : ℝ) : EReal)) (step_apply (iblk m c 0 t) (iblk m c 1 t) _ i)

/-! ## The running sum -/

/-- The sum of the block sums of the points 0 … n, built one point at a time. -/
def running (c : Dev nD) : (n : ℕ) → n < cfg0.N → EReal
  | 0, h => ptVal m c ⟨0, h⟩
  | n + 1, h => running c n (Nat.lt_of_succ_lt h) + ptVal m c ⟨n + 1, h⟩

/-- The scratch word after point `n` is the running sum — by induction on the point. -/
theorem scratch_eq (c : Dev nD) : ∀ (n : ℕ) (h : n < cfg0.N) (i : S1x1.Idx), (outsAt0 m c n h).2 i = running m c n h
  | 0, h, i => scratch_first m c ⟨0, h⟩ rfl (by show ¬(0 : ℕ) % 32 = 31; decide) i
  | n + 1, h, i => by
    have hN : cfg0.N = 32 := N_0
    have h0 : ¬(⟨n + 1, h⟩ : Fin cfg0.N).val % 32 = 0 := by dsimp only; omega
    by_cases h1 : (⟨n + 1, h⟩ : Fin cfg0.N).val % 32 = 31
    · refine (scratch_last m c ⟨n + 1, h⟩ h0 h1 i).trans ?_
      show (outsAt0 m c n _).2 i + _ = running m c n _ + _
      rw [scratch_eq c n]
    · refine (scratch_middle m c ⟨n + 1, h⟩ h0 h1 i).trans ?_
      show (outsAt0 m c n _).2 i + _ = running m c n _ + _
      rw [scratch_eq c n]

/-- The running sum after the last point is the sum of all losses. -/
theorem running_last (c : Dev nD) (h : 31 < cfg0.N) : running m c 31 h = total (scores m c) (labels m c) := by
  have hN : cfg0.N = 32 := N_0
  rw [chain_sum (ptVal m c) (running m c) (fun _ => rfl) (fun _ _ => rfl) 31 h]
  have e : ∀ s : Fin 32, ptVal m c ⟨s.val, lt_of_lt_of_le s.isLt h⟩
      = blockSum (scores m c) (labels m c) ⟨s.val / 8, by have := s.isLt; omega⟩ ⟨s.val % 8, by omega⟩ := fun s => ptVal_eq m c _
  rw [show (∑ s : Fin (31 + 1), ptVal m c ⟨s.val, lt_of_lt_of_le s.isLt h⟩)
      = ∑ s : Fin 32, blockSum (scores m c) (labels m c) ⟨s.val / 8, by have := s.isLt; omega⟩ ⟨s.val % 8, by omega⟩ from
    Finset.sum_congr rfl fun s _ => e s]
  exact total_eq_points (scores m c) (labels m c) (fun s => ⟨s.val / 8, by have := s.isLt; omega⟩) (fun s => ⟨s.val % 8, by omega⟩)
    (fun s => by show s.val = 8 * (s.val / 8) + s.val % 8; omega)

/-- What the last point leaves in the output word: the mean. -/
theorem output_eq (c : Dev nD) (h : 31 < cfg0.N) (i : S1x1.Idx) :
    (outsAt0 m c 31 h).1 i = mean (scores m c) (labels m c) := by
  refine (output_last m c ⟨31, h⟩ (by show ¬(31 : ℕ) % 32 = 0; decide) rfl i).trans ?_
  show ((outsAt0 m c 30 _).2 i + ptVal m c ⟨31, h⟩) * _ = _
  rw [scratch_eq m c 30]
  show running m c 31 h * _ = _
  rw [running_last m c h]
  rfl

end Cert.KernelIdeal.KValue

end
-- ==== Proof.KernelRun.lean ====
/-
  The kernel's run, read: its result is the mean.

  The output array is one word, and its one block is the whole array. Only the last point writes it back, and what
  that point leaves in the staging buffer is the mean (`output_eq`), so the array ends holding the mean. The program's
  last line reshapes the [1, 1] array to a scalar: the same word.
-/
import proofs.«106101_j78340203479413_2_alg».proof.Proof.Gen.KernelIdeal.Frame
import proofs.«106101_j78340203479413_2_alg».proof.Proof.Accum
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.FocalSpec

variable (m : (ℓ : Loc nD τ sig) → Buf (Elt Ideal) ℓ) (ρ : Dev nD → PrngReg)

/-- The last point. -/
def lastPt : Fin cfg0.N := ⟨31, by have : cfg0.N = 32 := N_0; omega⟩

/-- The output array after the run: its one word is the mean. -/
abbrev outArr (c : Dev nD) : Buf (Elt Ideal) ((c : Thread nD τ).loc main_v0) := fun _ => mean (scores m c) (labels m c)

/-- The one write-back, at the last point, writes the mean. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 32 := N_0
  have h31 : t.val = 31 := by have := (flush0_2 t).mp hf; have := t.isLt; omega
  obtain rfl : t = lastPt := Fin.ext h31
  funext y
  show (dats m 0 c).after 2 lastPt ((cfg0.win 2).xinj (grid0.coords lastPt) y) = _
  rw [after0_2, View.read_apply]
  exact output_eq m c _ _

/-- So the output array ends holding the mean: the last point's block covers it. -/
theorem final_out (c : Dev nD) : (dats m 0 c).arrAt 2 cfg0.N = outArr m c :=
  (dats m 0 c).arrAt_eq_of_cover 2 (outArr m c) (flushed_eq m c) fun i =>
    ⟨lastPt, (flush0_2 lastPt).mpr rfl, by
      show i ∈ ((View.whole main_v0).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 1 from by decide +kernel]; omega⟩

/-- The program's last line reshapes the output array to a scalar: the mean. -/
theorem tail_eq (c : Dev nD) :
    Pipeline.afterTail₀ cfgs (dats m) 0 (V0 m) [hostOps1] c main_v1 = fun _ => mean (scores m c) (labels m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0) = outArr m c :=
    (Pipeline.withArrays_arr spec0 launch0.win.arr_inj c _ _ 2).trans (final_out m c)
  rw [e]
  rfl

/-- The run, read: the result at the mean of the arguments as the region finds them, the arguments unchanged. -/
theorem run : θ_run defs (onTc (τ := τ) (main (F := Ideal))) ⟨m, fun _ => 0, ρ⟩ fun r => ∀ c : Dev nD,
      r.2.mem ((c.tc : Thread nD τ).loc main_v1) = (fun _ => mean (scores m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The certificate of the focal-loss kernel against its jnp reference.

  Both programs compute, from scores x : [4, 19, 512, 512] and labels [4, 512, 512], the mean over all 19922944
  entries of the focal loss (`FocalSpec.mean`, Proof/Spec.lean). The reference forms the array of losses, adds all of
  it to zero, divides by the literal 19922944 and multiplies by the literal 1 (Proof/RefMean.lean). The kernel visits
  32 blocks of 64 rows of one image, adds each block's sum of losses to a one-word scratch (channels innermost, then
  lanes, then rows), and at the last block writes the scratch times a constant the certificate's table names 1/19922944
  (Proof/Pieces.lean, SumUp.lean, LossBlock.lean, Accum.lean, KernelRun.lean). Over the extended reals a finite sum does
  not depend on order or grouping, dividing by a nonzero real is multiplying by its reciprocal, 0 + a = a and 1 · a = a,
  so the two results are equal at every input: the precondition is not used.
  The three frames are the generated frame runs; `preserves` is the one named constant's statement.
-/
import proofs.«106101_j78340203479413_2_alg».proof.Defs
import proofs.«106101_j78340203479413_2_alg».proof.Proof.Gen.Kernel
import proofs.«106101_j78340203479413_2_alg».proof.Proof.Gen.Kernel.Frame
import proofs.«106101_j78340203479413_2_alg».proof.Proof.Gen.KernelIdeal
import proofs.«106101_j78340203479413_2_alg».proof.Proof.Gen.KernelIdeal.Frame
import proofs.«106101_j78340203479413_2_alg».proof.Proof.Gen.ReferenceIdeal
import proofs.«106101_j78340203479413_2_alg».proof.Proof.Gen.Pre_finite_inputs
import proofs.«106101_j78340203479413_2_alg».proof.Proof.RefRead
import proofs.«106101_j78340203479413_2_alg».proof.Proof.RefMean
import proofs.«106101_j78340203479413_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the scale constant is named, and the table gives the name 1/19922944. -/
theorem preserves : Cert.preserves_Kernel_KernelIdeal :=
  IdealRules.named_const.statement Cert.KernelIdeal.κ "inv_count" .f32 0x33579436#32 ((1 / 19922944 : ℝ) : EReal) rfl

/-- Both runs end with the mean of the arguments, which agree. -/
theorem algebraic : Cert.algebraic_KernelIdeal_ReferenceIdeal := by
  intro m ρ m' ρ' _ hagree
  refine ⟨fun c => fun _ => Cert.FocalSpec.mean (Cert.KernelIdeal.KValue.scores m c) (Cert.KernelIdeal.KValue.labels m c),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v36_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
